-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x9 : Shape := ⟨2, ![4194304, 9]⟩
abbrev S4194304 : Shape := ⟨1, ![4194304]⟩
abbrev S_ : Shape := ⟨0, ![]⟩

class Facts : Prop where
  bcast_S_S4194304x9 : S_.BroadcastsInDim S4194304x9 (![] : Fin 0 → Fin S4194304x9.rank)
  reducesTo_S4194304x9_S_d0_1 : S4194304x9.ReducesTo [0, 1] S_
  h_S_ : 0 < S_.numel

variable [Facts]

def fn {F : FTy → Type} [FloatOps F] (main_arg0 : FVec F S4194304x9 .f32) (main_arg1 : IVec S4194304 32) : IVec S_ 1 :=
  let main_v0 : FVec F S4194304x9 .f32 := Host.absf main_arg0
  let main_cst : FVec F S_ .f32 := constant S_ .f32 0x7F800000#32
  let main_v1 : FVec F S4194304x9 .f32 := broadcastInDim S4194304x9 ![] bcast_S_S4194304x9 main_cst
  let main_v2 : IVec S4194304x9 1 := cmpf .olt main_v0 main_v1
  let main_c : IVec S_ 1 := constantI S_ 1 1#1
  let main_v3 : IVec S_ 1 := (fun x v => Host.reduce IntOp.andi x v reducesTo_S4194304x9_S_d0_1 h_S_) main_v2 main_c
  main_v3
-- ==== Kernel.lean ====
abbrev S4194304x9 : Shape := ⟨2, ![4194304, 9]⟩
abbrev S4194304 : Shape := ⟨1, ![4194304]⟩
abbrev S4194304x1 : Shape := ⟨2, ![4194304, 1]⟩
abbrev S1x1 : Shape := ⟨2, ![1, 1]⟩
abbrev S8192x9 : Shape := ⟨2, ![8192, 9]⟩
abbrev S8192x1 : Shape := ⟨2, ![8192, 1]⟩
abbrev S8192 : Shape := ⟨1, ![8192]⟩
abbrev S1 : Shape := ⟨1, ![1]⟩
abbrev S_ : Shape := ⟨0, ![]⟩

abbrev nBuf : Space → Nat
  | .hbm => 5
  | .vmem => 5
  | .smem => 0
  | _ => 0

abbrev bufTy : (tb : Table) → Fin (tcTables nBuf tb) → BufTy
  | .hbm, ⟨0, _⟩ => ⟨S4194304x9, .f32⟩
  | .hbm, ⟨1, _⟩ => ⟨S4194304, .i32⟩
  | .hbm, ⟨2, _⟩ => ⟨S4194304x1, .i32⟩
  | .hbm, ⟨3, _⟩ => ⟨S1x1, .f32⟩
  | .hbm, ⟨4, _⟩ => ⟨S_, .f32⟩
  | .local _ .vmem, ⟨0, _⟩ => ⟨S8192x9, .f32⟩
  | .local _ .vmem, ⟨1, _⟩ => ⟨S8192x9, .f32⟩
  | .local _ .vmem, ⟨2, _⟩ => ⟨S8192x1, .i32⟩
  | .local _ .vmem, ⟨3, _⟩ => ⟨S8192x1, .i32⟩
  | .local _ .vmem, ⟨4, _⟩ => ⟨S1x1, .f32⟩
  | _, _ => ⟨S4194304x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S4194304_S4194304x1 : S4194304.ShapeCasts S4194304x1
  inb_S1x1_S1x1_0_0 : ∀ a, (![0, 0] : Fin 2 → Nat) a + S1x1.size a ≤ S1x1.size a
  h_S1x1 : 0 < S1x1.numel
  inb_S8192x9_S8192x9_0_0 : ∀ a, (![0, 0] : Fin 2 → Nat) a + S8192x9.size a ≤ S8192x9.size a
  h_S8192x9 : 0 < S8192x9.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x9_d1_w32 : S8192x9.Iotas .tc 32 [1]
  broadcasts_S8192x1_S8192x9 : S8192x1.Broadcasts S8192x9
  reduces_S8192x9_S8192 : S8192x9.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x9.size a ≤ S4194304x9.size a
  hwx0_0 : ∀ i : grid0.Coords, EltTy.bits .f32 = 32 ∨ (Rect.block (s := S4194304x9) S8192x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S4194304x1.size a
  hwx0_1 : ∀ i : grid0.Coords, EltTy.bits .i32 = 32 ∨ (Rect.block (s := S4194304x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8192x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x9 : Shape := ⟨2, ![4194304, 9]⟩
abbrev S4194304 : Shape := ⟨1, ![4194304]⟩
abbrev S9 : Shape := ⟨1, ![9]⟩
abbrev S1x9 : Shape := ⟨2, ![1, 9]⟩
abbrev S4194304x1 : Shape := ⟨2, ![4194304, 1]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4194304x9, .f32⟩
  | .hbm, ⟨1, _⟩ => ⟨S4194304, .i32⟩
  | .hbm, ⟨2, _⟩ => ⟨S9, .i32⟩
  | .hbm, ⟨3, _⟩ => ⟨S1x9, .i32⟩
  | .hbm, ⟨4, _⟩ => ⟨S4194304x1, .i32⟩
  | .hbm, ⟨5, _⟩ => ⟨S4194304x9, .i32⟩
  | .hbm, ⟨6, _⟩ => ⟨S4194304x9, .i32⟩
  | .hbm, ⟨7, _⟩ => ⟨S4194304x9, .i32⟩
  | .hbm, ⟨8, _⟩ => ⟨S_, .i32⟩
  | .hbm, ⟨9, _⟩ => ⟨S4194304x9, .i32⟩
  | .hbm, ⟨10, _⟩ => ⟨S4194304x9, .i1⟩
  | .hbm, ⟨11, _⟩ => ⟨S4194304x9, .f32⟩
  | .hbm, ⟨12, _⟩ => ⟨S4194304x9, .f32⟩
  | .hbm, ⟨13, _⟩ => ⟨S_, .f32⟩
  | .hbm, ⟨14, _⟩ => ⟨S4194304x9, .f32⟩
  | .hbm, ⟨15, _⟩ => ⟨S4194304x9, .f32⟩
  | .hbm, ⟨16, _⟩ => ⟨S4194304x9, .f32⟩
  | .hbm, ⟨17, _⟩ => ⟨S_, .f32⟩
  | .hbm, ⟨18, _⟩ => ⟨S4194304x9, .f32⟩
  | .hbm, ⟨19, _⟩ => ⟨S4194304x9, .f32⟩
  | .hbm, ⟨20, _⟩ => ⟨S_, .f32⟩
  | .hbm, ⟨21, _⟩ => ⟨S4194304x9, .f32⟩
  | .hbm, ⟨22, _⟩ => ⟨S4194304x9, .f32⟩
  | .hbm, ⟨23, _⟩ => ⟨S_, .i32⟩
  | .hbm, ⟨24, _⟩ => ⟨S4194304x9, .i32⟩
  | .hbm, ⟨25, _⟩ => ⟨S4194304x9, .i1⟩
  | .hbm, ⟨26, _⟩ => ⟨S_, .f32⟩
  | .hbm, ⟨27, _⟩ => ⟨S4194304x9, .f32⟩
  | .hbm, ⟨28, _⟩ => ⟨S4194304x9, .f32⟩
  | .hbm, ⟨29, _⟩ => ⟨S_, .f32⟩
  | .hbm, ⟨30, _⟩ => ⟨S4194304x9, .f32⟩
  | .hbm, ⟨31, _⟩ => ⟨S4194304x9, .f32⟩
  | .hbm, ⟨32, _⟩ => ⟨S_, .f32⟩
  | .hbm, ⟨33, _⟩ => ⟨S4194304, .f32⟩
  | .hbm, ⟨34, _⟩ => ⟨S4194304x1, .f32⟩
  | .hbm, ⟨35, _⟩ => ⟨S4194304x9, .f32⟩
  | .hbm, ⟨36, _⟩ => ⟨S4194304x9, .f32⟩
  | .hbm, ⟨37, _⟩ => ⟨S_, .f32⟩
  | .hbm, ⟨38, _⟩ => ⟨S4194304, .f32⟩
  | .hbm, ⟨39, _⟩ => ⟨S_, .f32⟩
  | .hbm, ⟨40, _⟩ => ⟨S4194304, .f32⟩
  | .hbm, ⟨41, _⟩ => ⟨S4194304, .f32⟩
  | .hbm, ⟨42, _⟩ => ⟨S4194304x1, .f32⟩
  | .hbm, ⟨43, _⟩ => ⟨S4194304x9, .f32⟩
  | .hbm, ⟨44, _⟩ => ⟨S4194304x9, .f32⟩
  | .hbm, ⟨45, _⟩ => ⟨S4194304x9, .f32⟩
  | .hbm, ⟨46, _⟩ => ⟨S_, .f32⟩
  | .hbm, ⟨47, _⟩ => ⟨S4194304, .f32⟩
  | .hbm, ⟨48, _⟩ => ⟨S4194304x1, .f32⟩
  | .hbm, ⟨49, _⟩ => ⟨S4194304x1, .f32⟩
  | .hbm, ⟨50, _⟩ => ⟨S4194304x9, .f32⟩
  | .hbm, ⟨51, _⟩ => ⟨S4194304x9, .f32⟩
  | .hbm, ⟨52, _⟩ => ⟨S4194304x9, .f32⟩
  | .hbm, ⟨53, _⟩ => ⟨S_, .f32⟩
  | .hbm, ⟨54, _⟩ => ⟨S4194304, .f32⟩
  | .hbm, ⟨55, _⟩ => ⟨S4194304, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4194304x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_call0_v0 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call1_v0 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call2_cst : Ref sig .tc := ⟨.hbm, 37, rfl⟩
abbrev main_call2_v0 : Ref sig .tc := ⟨.hbm, 38, rfl⟩
abbrev main_call2_cst_0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_cst_1 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_cst_8 : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  bcast_S9_S1x9_1 : S9.BroadcastsInDim S1x9 (![1] : Fin 1 → Fin S1x9.rank)
  bcast_S4194304_S4194304x1_0 : S4194304.BroadcastsInDim S4194304x1 (![0] : Fin 1 → Fin S4194304x1.rank)
  bcast_S1x9_S4194304x9_0_1 : S1x9.BroadcastsInDim S4194304x9 (![0, 1] : Fin 2 → Fin S4194304x9.rank)
  bcast_S4194304x1_S4194304x9_0_1 : S4194304x1.BroadcastsInDim S4194304x9 (![0, 1] : Fin 2 → Fin S4194304x9.rank)
  bcast_S_S4194304x9 : S_.BroadcastsInDim S4194304x9 (![] : Fin 0 → Fin S4194304x9.rank)
  reducesTo_S4194304x9_S4194304_d1 : S4194304x9.ReducesTo [1] S4194304
  h_S_ : 0 < S_.numel
  bcast_S_S4194304 : S_.BroadcastsInDim S4194304 (![] : Fin 0 → Fin S4194304.rank)
  reducesTo_S4194304_S_d0 : S4194304.ReducesTo [0] S_

variable [Facts₀]

class Facts : Prop extends Facts₀ where

variable [Facts]
-- ==== Proof.BodyPieces.lean ====
/-
  What one run of the body leaves in the output's [1, 1] staging buffer, for any float values.

  The body has three control cases over the grid. At the first point it stores the zero block, reads it back, and
  stores it plus the block's loss: the buffer ends at the accumulation payload over the reset payload. At a middle point
  it reads the running value `xo` the point before left and stores it plus the block's loss. At the last point it does
  the same and then reads that back and stores it divided by the number of rows. Each case's stores go through the whole
  [1, 1] rectangle at offset zero, so the last store's payload is what the buffer holds; a load through the same rectangle
  of what one earlier store left reads that store's payload; the loads of the two input buffers read the whole blocks.
-/
import proofs.«117349_j28381143892403_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.BodyPieces

open Cert.KernelIdeal Cert.KernelIdeal.Gen

variable {F : FTy → Type} [FloatOps F]

/-- Every access of the body starts at offset zero. -/
theorem hz : (![0, 0] : Fin 2 → Nat) = fun _ => 0 := funext fun a => by fin_cases a <;> rfl

/-- A middle point: the running value plus the block's loss. -/
theorem out_mid (c : Dev nD) (i : grid0.Coords) (a1 : Memref sig .tc .vmem S8192x9 .f32) (h1 : a1.IsWhole)
    (a2 : Memref sig .tc .vmem S8192x1 .i32) (h2 : a2.IsWhole) (a3 : Memref sig .tc .vmem S1x1 .f32) (h3 : a3.IsWhole)
    (hc0 : ¬cond0_0 i) (hc1 : ¬cond0_1 i) (x0 : Vec F S8192x9 .f32) (x1 : Vec F S8192x1 .i32) (xo : Vec F S1x1 .f32) :
    out0_B_2 c i a1 h1 a2 h2 a3 h3 hc0 hc1 x0 x1 xo = k0_pay1 (k0_pay4 x1) (k0_pay5 x0) xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero hz]
  simp only [View.readAt_eq_ld, h1.read_unread, h2.read_unread, h3.read_unread, View.ld_unit_zero (S := S8192x9) hz,
    View.ld_unit_zero (S := S8192x1) hz, View.ld_unit_zero (S := S1x1) hz]

/-- The first point: the reset block plus the block's loss. -/
theorem out_first (c : Dev nD) (i : grid0.Coords) (a1 : Memref sig .tc .vmem S8192x9 .f32) (h1 : a1.IsWhole)
    (a2 : Memref sig .tc .vmem S8192x1 .i32) (h2 : a2.IsWhole) (a3 : Memref sig .tc .vmem S1x1 .f32) (h3 : a3.IsWhole)
    (hc0 : cond0_0 i) (hc1 : ¬cond0_1 i) (x0 : Vec F S8192x9 .f32) (x1 : Vec F S8192x1 .i32) :
    out0_A_2 c i a1 h1 a2 h2 a3 h3 hc0 hc1 x0 x1 = k0_pay1 (k0_pay4 x1) (k0_pay5 x0) (k0_pay3 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz]
  simp only [View.readCov_unit_zero (S := S1x1) _ hz, View.readAt_eq_ld, h1.read_unread, h2.read_unread, h3.read_unread,
    View.ld_unit_zero (S := S8192x9) hz, View.ld_unit_zero (S := S8192x1) hz, View.ld_unit_zero (S := S1x1) hz]

/-- The last point: the running value plus the block's loss, over the number of rows. -/
theorem out_last (c : Dev nD) (i : grid0.Coords) (a1 : Memref sig .tc .vmem S8192x9 .f32) (h1 : a1.IsWhole)
    (a2 : Memref sig .tc .vmem S8192x1 .i32) (h2 : a2.IsWhole) (a3 : Memref sig .tc .vmem S1x1 .f32) (h3 : a3.IsWhole)
    (hc0 : ¬cond0_0 i) (hc1 : cond0_1 i) (x0 : Vec F S8192x9 .f32) (x1 : Vec F S8192x1 .i32) (xo : Vec F S1x1 .f32) :
    out0_C_2 c i a1 h1 a2 h2 a3 h3 hc0 hc1 x0 x1 xo = k0_pay2 (k0_pay1 (k0_pay4 x1) (k0_pay5 x0) xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz]
  simp only [View.readCov_unit_zero (S := S1x1) _ hz, View.readAt_eq_ld, h1.read_unread, h2.read_unread, h3.read_unread,
    View.ld_unit_zero (S := S8192x9) hz, View.ld_unit_zero (S := S8192x1) hz, View.ld_unit_zero (S := S1x1) hz]

end Cert.KernelIdeal.BodyPieces

end
-- ==== Proof.LossSpec.lean ====
/-
  The label-smoothed cross-entropy both programs compute, as ONE function of the two argument arrays on the
  extended reals.

  A row of nine logits `x` with target word `tg`: class `c` stands at the signed distance `gap tg c = c − tg` (32-bit
  words) from the target. The unnormalised label mass is `0.8` at the target (`gap = 0`), and elsewhere the base mass
  `1/90` plus, above the target only (`gap > 0`), the geometrically decayed upward mass `0.1 · exp (ln2 · (−gap))`;
  every number is the single-precision word the programs print, read as the extended real it denotes. The label is the
  mass divided by the sum of the nine masses; the log-probability is the logarithmic softmax with the row's maximum (a
  fold of `max` from the `−∞` word) subtracted first; the row's loss is minus the sum over the classes of label times
  log-probability; the result is the sum of the row losses divided by the word of `4194304`.
-/
import Idealize.ShloMosaic.PureOps.Ideal.Laws
import Idealize.ShloMosaic.Lib.ValueIdx

noncomputable section

open scoped BigOperators

namespace Cert.LossSpec

open Idealize.ShloMosaic

/-- The signed distance of class `c` from the target, as a 32-bit word. -/
def gap (tg : BitVec 32) (c : Fin 9) : BitVec 32 := IntOp.subi (BitVec.ofNat 32 c.val) tg

/-- The upward mass `0.1 · exp (ln2 · (−gap))`, each constant the printed single-precision word. -/
def decay (tg : BitVec 32) (c : Fin 9) : EReal :=
  Ideal.ofBits .f32 0x3DCCCCCD#32 * Ideal.exp (Ideal.ofBits .f32 0x3F317218#32 * -(FloatOps.sitofp (F := Ideal) .f32 (gap tg c)))

/-- The unnormalised label mass of class `c`. -/
def weight (tg : BitVec 32) (c : Fin 9) : EReal :=
  Scalar.select (IntOp.cmpi .eq (gap tg c) 0#32) (Ideal.ofBits .f32 0x3F4CCCCD#32)
    (Ideal.ofBits .f32 0x3C360B61#32
      + Scalar.select (IntOp.cmpi .sgt (gap tg c) 0#32) (decay tg c) (Ideal.ofBits .f32 0x00000000#32))

/-- The label of class `c`: its mass over the sum of the nine masses. -/
def label (tg : BitVec 32) (c : Fin 9) : EReal := Ideal.div (weight tg c) (∑ k : Fin 9, weight tg k)

/-- The row's maximum, folded from the `−∞` word. -/
def rowMax (x : Fin 9 → EReal) : EReal := (Finset.univ : Finset (Fin 9)).fold max (Ideal.ofBits .f32 0xFF800000#32) x

/-- The logarithmic softmax of the row at class `c`. -/
def logProb (x : Fin 9 → EReal) (c : Fin 9) : EReal :=
  (x c - rowMax x) - Ideal.log (∑ k : Fin 9, Ideal.exp (x k - rowMax x))

/-- One row's loss. -/
def rowLoss (x : Fin 9 → EReal) (tg : BitVec 32) : EReal := -(∑ c : Fin 9, label tg c * logProb x c)

/-- The mean loss over the 4194304 rows. -/
def meanLoss (X : Fin 4194304 → Fin 9 → EReal) (T : Fin 4194304 → BitVec 32) : EReal :=
  Ideal.div (∑ i : Fin 4194304, rowLoss (X i) (T i)) (Ideal.ofBits .f32 0x4A800000#32)

/-- Zero minus a number is its negative, on the extended reals. -/
theorem zero_sub' (a : EReal) : (0 : EReal) - a = -a := by rw [sub_eq_add_neg, zero_add]

/-- The zero word denotes zero. -/
theorem zeroWord : Ideal.ofBits .f32 0x00000000#32 = 0 := Ideal.ofBits_zero_f32

end Cert.LossSpec

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«117349_j28381143892403_1_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibColumnSum.lean ====
/-
  A sum over the FIRST axis of a rank-2 vector read at an index, at the ideal values: at column `b` it is the sum over the
  row coordinate (`colSum2_apply`) — the companion of a row sum (over the second axis). With a unit second extent it is the
  sum of a column vector [n, 1] into [1], the second step of a `keepdims` reduction of a block to one number.
-/
import Idealize.ShloMosaic.PureOps.Ideal.Laws
import Idealize.ShloMosaic.Lib.ValueIdx

noncomputable section

open scoped BigOperators

namespace Idealize.ShloMosaic.ColumnSum

open Idealize.ShloMosaic Idealize.ShloMosaic.ValueIdx

/-- A sum over the first axis of a rank-2 vector, at column `b`: the sum over the row coordinate. -/
theorem colSum2_apply {n0 n1 : Nat} {φ : FTy} (v : FVec Ideal ⟨2, ![n0, n1]⟩ φ) (acc : BitVec φ.bits)
    (h : (⟨2, ![n0, n1]⟩ : Shape).Reduces [0] ⟨1, ![n1]⟩) (hφ : FKind.Formats φ) (hacc : acc = FKind.add.neutral φ hφ)
    (b : Fin n1) :
    multiReduction .add [0] ⟨1, ![n1]⟩ v acc h hφ hacc (ix1 b) = ∑ a : Fin n0, v (ix2 a b) :=
  (Ideal.multiReduction_add_single v acc h hφ hacc (ix1 b)).trans
    (Finset.sum_congr rfl fun k _ => congrArg v (funext fun d => Fin.ext (by
      match d with | ⟨0, _⟩ => rfl | ⟨1, _⟩ => rfl)))

end Idealize.ShloMosaic.ColumnSum

end
-- ==== Proof.BodyRows.lean ====
/-
  The body's arithmetic at the ideal values, read at an index.

  The body computes, from a block of 8192 target words `tg` (a column) and a block of 8192 rows of nine logits `x`:
  the normalised labels (mass over the row's sum of masses), the logarithmic softmax of each row, and then adds to the
  running scalar the block's sum over the rows of minus the row's sum of label times log-probability. Read at a row
  `r` and a class `c` the first two are `LossSpec.label` of the row's target and `LossSpec.logProb` of the row; read at
  its one index the third is the running scalar plus the sum over the block's rows of `0 − ∑ c, label · logProb`.
  The only law used is that `(0 − s) · L = L · (−s)` on the extended reals (the zero word denotes zero, zero minus a
  number is its negative, multiplication commutes); nothing needs an entry to be finite.
-/
import proofs.«117349_j28381143892403_1_alg».proof.Proof.Gen.KernelIdeal.Skeleton
import proofs.«117349_j28381143892403_1_alg».proof.Proof.LossSpec
import proofs.«117349_j28381143892403_1_alg».proof.Proof.LibKeepdims
import proofs.«117349_j28381143892403_1_alg».proof.Proof.LibSoftmaxRows
import proofs.«117349_j28381143892403_1_alg».proof.Proof.LibColumnSum
import Idealize.ShloMosaic.Lib.Pipeline.Value
import Idealize.ShloMosaic.Lib.ValueIdx
import Idealize.ShloMosaic.PureOps.Ideal.Laws

noncomputable section

open scoped BigOperators

namespace Cert.KernelIdeal.BodyRows

open Idealize.ShloMosaic Idealize.ShloMosaic.ValueIdx Cert.KernelIdeal Cert.KernelIdeal.Gen Cert.LossSpec

/-- The one index of a [1, 1] block. -/
theorem one_idx (y : S1x1.Idx) : y = ix2 0 0 := by
  have h0 : (y 0).val < 1 := idx2_lt0 y
  have h1 : (y 1).val < 1 := idx2_lt1 y
  funext a
  apply Fin.ext
  match a with
  | ⟨0, _⟩ => show (y 0).val = 0; omega
  | ⟨1, _⟩ => show (y 1).val = 0; omega

/-! ## The labels -/

/-- The signed class distances of a block: the lane number minus the row's target. -/
def gapVec (v4 : Vec Ideal S8192x1 .i32) : IVec S8192x9 32 :=
  subi (iota .tc S8192x9 32 [1] iota_S8192x9_d1_w32)
    (broadcastTo S8192x9 (shapeCast S8192x1 v4 shapeCasts_S8192x1_S8192x1) broadcasts_S8192x1_S8192x9)

theorem gapVec_apply (v4 : Vec Ideal S8192x1 .i32) (r : Fin 8192) (k : Fin 9) :
    gapVec v4 (ix2 r k) = gap (v4 (ix2 r 0)) k := by
  show IntOp.subi (iota .tc S8192x9 32 [1] iota_S8192x9_d1_w32 (ix2 r k))
      (broadcastTo S8192x9 (shapeCast S8192x1 v4 shapeCasts_S8192x1_S8192x1) broadcasts_S8192x1_S8192x9 (ix2 r k)) = _
  rw [iota_single_apply, Keepdims.bcast_col_apply, shapeCast_self]
  rfl

/-- The unnormalised label masses of a block. -/
def massVec (v4 : Vec Ideal S8192x1 .i32) : FVec Ideal S8192x9 .f32 :=
  select (cmpi .eq (gapVec v4) (broadcast S8192x9 0#32)) (broadcast S8192x9 (Scalar.ofBits .f32 0x3F4CCCCD#32))
    (addf (broadcast S8192x9 (Scalar.ofBits .f32 0x3C360B61#32))
      (select (cmpi .sgt (gapVec v4) (broadcast S8192x9 0#32))
        (mulf (broadcast S8192x9 (Scalar.ofBits .f32 0x3DCCCCCD#32))
          (exp (mulf (subf (broadcast S8192x9 (Scalar.ofBits .f32 0x00000000#32)) (sitofp .f32 (gapVec v4)))
            (broadcast S8192x9 (Scalar.ofBits .f32 0x3F317218#32)))))
        (broadcast S8192x9 (Scalar.ofBits .f32 0x00000000#32))))

/-- The body's upward mass `0.1 · exp ((0 − gap) · ln2)` is the specification's `0.1 · exp (ln2 · (−gap))`. -/
theorem decay_eq (tg : BitVec 32) (k : Fin 9) :
    Ideal.ofBits .f32 0x3DCCCCCD#32 * Ideal.exp ((Ideal.ofBits .f32 0x00000000#32 - FloatOps.sitofp (F := Ideal) .f32 (gap tg k))
      * Ideal.ofBits .f32 0x3F317218#32) = decay tg k := by
  unfold decay
  rw [zeroWord, zero_sub', mul_comm (-(FloatOps.sitofp (F := Ideal) .f32 (gap tg k))) _]

theorem massVec_apply (v4 : Vec Ideal S8192x1 .i32) (r : Fin 8192) (k : Fin 9) :
    massVec v4 (ix2 r k) = weight (v4 (ix2 r 0)) k := by
  show Scalar.select (IntOp.cmpi .eq (gapVec v4 (ix2 r k)) 0#32) (Ideal.ofBits .f32 0x3F4CCCCD#32)
      (Ideal.ofBits .f32 0x3C360B61#32 + Scalar.select (IntOp.cmpi .sgt (gapVec v4 (ix2 r k)) 0#32)
        (Ideal.ofBits .f32 0x3DCCCCCD#32 * Ideal.exp ((Ideal.ofBits .f32 0x00000000#32 - FloatOps.sitofp (F := Ideal) .f32 (gapVec v4 (ix2 r k)))
          * Ideal.ofBits .f32 0x3F317218#32))
        (Ideal.ofBits .f32 0x00000000#32)) = _
  rw [gapVec_apply, decay_eq]
  rfl

/-- The first payload is the masses over their row sums. -/
theorem labels_eq (v4 : Vec Ideal S8192x1 .i32) :
    k0_pay4 (F := Ideal) v4 = divf (massVec v4) (broadcastTo S8192x9 (shapeCast S8192x1
      (multiReduction .add [1] S8192 (massVec v4) 0x00000000#32 reduces_S8192x9_S8192 (.inl rfl) rfl)
      shapeCasts_S8192_S8192x1) broadcasts_S8192x1_S8192x9) := rfl

/-- The labels of a block at row `r`, class `c`. -/
theorem labels_apply (v4 : Vec Ideal S8192x1 .i32) (r : Fin 8192) (c : Fin 9) :
    k0_pay4 (F := Ideal) v4 (ix2 r c) = label (v4 (ix2 r 0)) c := by
  have hsum : broadcastTo S8192x9 (shapeCast S8192x1
      (multiReduction .add [1] S8192 (massVec v4) 0x00000000#32 reduces_S8192x9_S8192 (.inl rfl) rfl)
      shapeCasts_S8192_S8192x1) broadcasts_S8192x1_S8192x9 (ix2 r c) = ∑ k : Fin 9, weight (v4 (ix2 r 0)) k :=
    (Keepdims.bcast_col_apply _ broadcasts_S8192x1_S8192x9 r c).trans
      ((Keepdims.cast_col_apply _ shapeCasts_S8192_S8192x1 r 0).trans
        ((Keepdims.rowSum2_apply (massVec v4) 0x00000000#32 reduces_S8192x9_S8192 (.inl rfl) rfl r).trans
          (Finset.sum_congr rfl fun k _ => massVec_apply v4 r k)))
  rw [labels_eq]
  exact congrArg₂ Ideal.div (massVec_apply v4 r c) hsum

/-! ## The log-probabilities -/

/-- The row maxima of a block, as a column broadcast back along the rows. -/
def maxVec (v3 : FVec Ideal S8192x9 .f32) : FVec Ideal S8192x9 .f32 :=
  broadcastTo S8192x9 (shapeCast S8192x1
    (multiReduction .maximumf [1] S8192 v3 0xFF800000#32 reduces_S8192x9_S8192 (.inl rfl) rfl)
    shapeCasts_S8192_S8192x1) broadcasts_S8192x1_S8192x9

theorem maxVec_apply (v3 : FVec Ideal S8192x9 .f32) (r : Fin 8192) (k : Fin 9) :
    maxVec v3 (ix2 r k) = rowMax (fun j => v3 (ix2 r j)) :=
  (Keepdims.bcast_col_apply _ broadcasts_S8192x1_S8192x9 r k).trans
    ((Keepdims.cast_col_apply _ shapeCasts_S8192_S8192x1 r 0).trans
      (SoftmaxRows.rowMax2_apply v3 0xFF800000#32 reduces_S8192x9_S8192 (.inl rfl) rfl r))

/-- The second payload over the row maxima. -/
theorem logProbs_eq (v3 : FVec Ideal S8192x9 .f32) :
    k0_pay5 (F := Ideal) v3 = subf (subf v3 (maxVec v3)) (broadcastTo S8192x9 (log (shapeCast S8192x1
      (multiReduction .add [1] S8192 (exp (subf v3 (maxVec v3))) 0x00000000#32 reduces_S8192x9_S8192 (.inl rfl) rfl)
      shapeCasts_S8192_S8192x1)) broadcasts_S8192x1_S8192x9) := rfl

/-- The log-probabilities of a block at row `r`, class `c`. -/
theorem logProbs_apply (v3 : FVec Ideal S8192x9 .f32) (r : Fin 8192) (c : Fin 9) :
    k0_pay5 (F := Ideal) v3 (ix2 r c) = logProb (fun j => v3 (ix2 r j)) c := by
  have hexp : ∀ k : Fin 9, exp (subf v3 (maxVec v3)) (ix2 r k)
      = Ideal.exp (v3 (ix2 r k) - rowMax (fun j => v3 (ix2 r j))) := fun k =>
    congrArg (fun M => Ideal.exp (v3 (ix2 r k) - M)) (maxVec_apply v3 r k)
  have hlog : broadcastTo S8192x9 (log (shapeCast S8192x1
      (multiReduction .add [1] S8192 (exp (subf v3 (maxVec v3))) 0x00000000#32 reduces_S8192x9_S8192 (.inl rfl) rfl)
      shapeCasts_S8192_S8192x1)) broadcasts_S8192x1_S8192x9 (ix2 r c)
      = Ideal.log (∑ k : Fin 9, Ideal.exp (v3 (ix2 r k) - rowMax (fun j => v3 (ix2 r j)))) :=
    (Keepdims.bcast_col_apply _ broadcasts_S8192x1_S8192x9 r c).trans (congrArg Ideal.log
      ((Keepdims.cast_col_apply _ shapeCasts_S8192_S8192x1 r 0).trans
        ((Keepdims.rowSum2_apply _ 0x00000000#32 reduces_S8192x9_S8192 (.inl rfl) rfl r).trans
          (Finset.sum_congr rfl fun k _ => hexp k))))
  have hsub : subf v3 (maxVec v3) (ix2 r c) = v3 (ix2 r c) - rowMax (fun j => v3 (ix2 r j)) :=
    congrArg (fun M => v3 (ix2 r c) - M) (maxVec_apply v3 r c)
  rw [logProbs_eq]
  unfold logProb
  exact congrArg₂ (fun a b : EReal => a - b) hsub hlog

/-! ## The accumulation -/

/-- The third payload at its one index: the running scalar plus the block's sum over its rows of zero minus the row's
    sum of products. -/
theorem accumulate_apply (v30 v40 : FVec Ideal S8192x9 .f32) (v48 : Vec Ideal S1x1 .f32) :
    k0_pay1 (F := Ideal) v30 v40 v48 (ix2 0 0)
      = v48 (ix2 0 0) + ∑ r : Fin 8192, (Ideal.ofBits .f32 0x00000000#32 - ∑ c : Fin 9, v30 (ix2 r c) * v40 (ix2 r c)) := by
  have hrow : ∀ r : Fin 8192, subf (broadcast S8192x1 (Scalar.ofBits .f32 0x00000000#32))
        (shapeCast S8192x1 (multiReduction .add [1] S8192 (mulf v30 v40) 0x00000000#32 reduces_S8192x9_S8192 (.inl rfl) rfl)
          shapeCasts_S8192_S8192x1) (ix2 r 0)
      = Ideal.ofBits .f32 0x00000000#32 - ∑ c : Fin 9, v30 (ix2 r c) * v40 (ix2 r c) := fun r =>
    congrArg (fun s => Ideal.ofBits .f32 0x00000000#32 - s)
      ((Keepdims.cast_col_apply _ shapeCasts_S8192_S8192x1 r 0).trans
        (Keepdims.rowSum2_apply (mulf v30 v40) 0x00000000#32 reduces_S8192x9_S8192 (.inl rfl) rfl r))
  have hblk : shapeCast S1x1 (multiReduction .add [0] S1
        (subf (broadcast S8192x1 (Scalar.ofBits .f32 0x00000000#32))
          (shapeCast S8192x1 (multiReduction .add [1] S8192 (mulf v30 v40) 0x00000000#32 reduces_S8192x9_S8192 (.inl rfl) rfl)
            shapeCasts_S8192_S8192x1))
        0x00000000#32 reduces_S8192x1_S1 (.inl rfl) rfl) shapeCasts_S1_S1x1 (ix2 0 0)
      = ∑ r : Fin 8192, (Ideal.ofBits .f32 0x00000000#32 - ∑ c : Fin 9, v30 (ix2 r c) * v40 (ix2 r c)) :=
    (Keepdims.cast_col_apply _ shapeCasts_S1_S1x1 0 0).trans
      ((ColumnSum.colSum2_apply _ 0x00000000#32 reduces_S8192x1_S1 (.inl rfl) rfl 0).trans
        (Finset.sum_congr rfl fun r _ => hrow r))
  have hacc : shapeCast S1x1 v48 shapeCasts_S1x1_S1x1 (ix2 0 0) = v48 (ix2 0 0) :=
    congrFun (shapeCast_self v48 shapeCasts_S1x1_S1x1) _
  exact congrArg₂ (fun a b : EReal => a + b) hacc hblk

/-- The last point's payload: the scalar over the word of 4194304. -/
theorem mean_apply (v55 : Vec Ideal S1x1 .f32) (y : S1x1.Idx) :
    k0_pay2 (F := Ideal) v55 y = Ideal.div (v55 y) (Ideal.ofBits .f32 0x4A800000#32) := by
  show Ideal.div (shapeCast S1x1 v55 shapeCasts_S1x1_S1x1 y) (Ideal.ofBits .f32 0x4A800000#32) = _
  rw [shapeCast_self]

/-- The first point's reset: the zero word. -/
theorem reset_apply (y : S1x1.Idx) : k0_pay3 (F := Ideal) y = Ideal.ofBits .f32 0x00000000#32 := rfl

end Cert.KernelIdeal.BodyRows

end
-- ==== Proof.BlockReads.lean ====
/-
  What the windows' blocks hold, read at an index of the argument arrays, at the ideal values.

  The grid has 512 points; at point `t` the logits window stages rows `8192·t … 8192·t + 8191` of the [4194304, 9]
  array and the targets window the same rows of the [4194304, 1] column the host made of the targets by a reshape, and
  the output window always stages the one [1, 1] block. So row `r` of the logits block at `t` is row `8192·t + r` of the
  logits argument, and row `r` of the targets block is entry `8192·t + r` of the targets argument. (`rowOf n r` is that
  row, reduced modulo the number of rows so that it is defined for every pair of naturals.)
-/
import proofs.«117349_j28381143892403_1_alg».proof.Proof.Gen.KernelIdeal.Frame
import proofs.«117349_j28381143892403_1_alg».proof.Proof.LibKeepdims
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx

namespace Cert.KernelIdeal.BlockReads

open Cert.KernelIdeal Cert.KernelIdeal.Gen

variable (m : (ℓ : Loc nD τ sig) → Buf (Elt Ideal) ℓ)

/-- Row `r` of block `n`, as a row of the whole array. -/
def rowOf (n r : ℕ) : Fin 4194304 := ⟨(8192 * n + r) % 4194304, Nat.mod_lt _ (by decide)⟩

/-- The windows' block indices over the grid: the two inputs move down the rows with the point, the output stays, and its
    block is never clipped. -/
theorem idx_facts : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_2.xsize (grid0.coords t) 0 = 1 ∧ win0_2.xsize (grid0.coords t) 1 = 1 :=
  (by decide +kernel : ∀ t : Fin grid0.N, win0_0.index t 0 = t.val ∧ win0_0.index t 1 = 0 ∧ win0_1.index t 0 = t.val ∧ win0_1.index t 1 = 0
    ∧ win0_2.index t 0 = 0 ∧ win0_2.index t 1 = 0 ∧ win0_2.xsize (grid0.coords t) 0 = 1 ∧ win0_2.xsize (grid0.coords t) 1 = 1)

/-- The logits block at point `t`, row `r`, class `k`. -/
theorem logits_blk (c : Dev nD) (t : Fin cfg0.N) (r : Fin 8192) (k : Fin 9) :
    (iblk m c 0 t : Vec Ideal S8192x9 .f32) (ix2 r k) = m ((c.tc : Thread nD τ).loc main_arg0) (ix2 (rowOf t.val r.val) k) := by
  have hN : t.val < 512 := lt_of_lt_of_eq t.isLt (show cfg0.N = 512 from N_0)
  unfold iblk
  rw [View.read_apply]
  show V m c main_arg0 (((cfg0.win 0).blk t).view.emb (ix2 r k)) = _
  refine (congrFun (V_main_arg0 m c) _).trans (congrArg _ ?_)
  funext a
  apply Fin.ext
  match a with
  | ⟨0, _⟩ =>
    show win0_0.index t 0 * 8192 + 1 * r.val = (8192 * t.val + r.val) % 4194304
    rw [(idx_facts t).1, Nat.mod_eq_of_lt (by omega)]; omega
  | ⟨1, _⟩ =>
    show win0_0.index t 1 * 9 + 1 * k.val = k.val
    rw [(idx_facts t).2.1]; omega

/-- The column the region finds: the host's reshape of the targets argument. -/
theorem targets_col (c : Dev nD) :
    (V m c main_v0 : S4194304x1.Idx → BitVec 32) = shapeCast S4194304x1 (m ((c.tc : Thread nD τ).loc main_arg1)) shapeCasts_S4194304_S4194304x1 := by
  show StableHlo.after hostOps0 (fun b => m (c, b)) (Proc.devRef .tc main_v0) = _
  after_results
  rfl

/-- The targets block at point `t`, row `r`. -/
theorem targets_blk (c : Dev nD) (t : Fin cfg0.N) (r : Fin 8192) :
    (iblk m c 1 t : Vec Ideal S8192x1 .i32) (ix2 r 0) = m ((c.tc : Thread nD τ).loc main_arg1) (ix1 (rowOf t.val r.val)) := by
  have hN : t.val < 512 := lt_of_lt_of_eq t.isLt (show cfg0.N = 512 from N_0)
  unfold iblk
  rw [View.read_apply]
  show V m c main_v0 (((cfg0.win 1).blk t).view.emb (ix2 r 0)) = _
  have e : ((cfg0.win 1).blk t).view.emb (ix2 r 0) = (ix2 (rowOf t.val r.val) 0 : S4194304x1.Idx) := by
    funext a
    apply Fin.ext
    match a with
    | ⟨0, _⟩ =>
      show win0_1.index t 0 * 8192 + 1 * r.val = (8192 * t.val + r.val) % 4194304
      rw [(idx_facts t).2.2.1, Nat.mod_eq_of_lt (by omega)]; omega
    | ⟨1, _⟩ =>
      show win0_1.index t 1 * 1 + 1 * 0 = 0
      rw [(idx_facts t).2.2.2.1]
  rw [e]
  refine (congrFun (targets_col m c) _).trans ?_
  exact Keepdims.cast_col_apply _ shapeCasts_S4194304_S4194304x1 (rowOf t.val r.val) 0

end Cert.KernelIdeal.BlockReads

end
-- ==== Proof.LibSumSplit.lean ====
import Mathlib.Algebra.BigOperators.Fin
import Mathlib.Data.Fintype.BigOperators
import Mathlib.Logic.Equiv.Fin.Basic

/-!
# Sums over an index range cut into equal blocks

For any additive commutative monoid:

* `SumSplit.sum_blocks`: a sum over `Fin (n * b)` is the sum over the `n` blocks of the sums over the `b` positions
  inside a block, the position `s` of block `kk` being the index `b * kk + s`; `SumSplit.sum_4096` is the case
  `4096 = 8 * 512`.
* `SumSplit.nest8`: eight terms added one after the other onto zero are the sum over `Fin 8`.
* `SumSplit.accUpTo` adds the first `n` terms of a sequence one after the other onto zero, and
  `SumSplit.accUpTo_eq_sum` says that this is the sum over `Fin n`.
-/

open scoped BigOperators

namespace SumSplit

variable {M : Type*} [AddCommMonoid M]

/-- Position `s` of block `kk`, of `n` blocks of `b` positions each, lies below `n * b`. -/
theorem blk_lt {n b : ℕ} (kk : Fin n) (s : Fin b) : b * kk.val + s.val < n * b :=
  calc b * kk.val + s.val < b * kk.val + b := Nat.add_lt_add_left s.isLt _
    _ = b * (kk.val + 1) := (Nat.mul_succ b kk.val).symm
    _ ≤ b * n := Nat.mul_le_mul_left b kk.isLt
    _ = n * b := Nat.mul_comm b n

/-- A sum over `n * b` indices is the sum, over the `n` blocks, of the sums over the `b` positions of a block: the pair
    (block, position) runs over the indices once each, as `b * block + position`. -/
theorem sum_blocks (n b : ℕ) (g : Fin (n * b) → M) :
    ∑ s : Fin (n * b), g s = ∑ kk : Fin n, ∑ s : Fin b, g ⟨b * kk.val + s.val, blk_lt kk s⟩ := by
  rw [← Equiv.sum_comp finProdFinEquiv g, Fintype.sum_prod_type]
  refine Finset.sum_congr rfl fun kk _ => Finset.sum_congr rfl fun s _ => ?_
  refine congrArg g (Fin.ext ?_)
  show s.val + b * kk.val = b * kk.val + s.val
  exact Nat.add_comm _ _

/-- 4096 indices are 8 blocks of 512. -/
theorem sum_4096 (g : Fin 4096 → M) :
    ∑ s : Fin 4096, g s
      = ∑ kk : Fin 8, ∑ s : Fin 512, g ⟨512 * kk.val + s.val, by have := kk.isLt; have := s.isLt; omega⟩ :=
  sum_blocks 8 512 g

/-- Eight terms added one after the other onto zero are their sum. -/
theorem nest8 (c : Fin 8 → M) :
    ((((((((0 + c 0) + c 1) + c 2) + c 3) + c 4) + c 5) + c 6) + c 7) = ∑ kk : Fin 8, c kk := by
  rw [Fin.sum_univ_eight, zero_add]

/-- The first `n` terms of a sequence added one after the other onto zero. -/
def accUpTo (c : ℕ → M) : ℕ → M
  | 0 => 0
  | k + 1 => accUpTo c k + c k

/-- Adding the first `n` terms one after the other gives their sum. -/
theorem accUpTo_eq_sum (c : ℕ → M) (n : ℕ) : accUpTo c n = ∑ kk : Fin n, c kk.val := by
  induction n with
  | zero => rfl
  | succ k ih =>
    rw [Fin.sum_univ_castSucc]
    show accUpTo c k + c k = ∑ kk : Fin k, c kk.val + c k
    rw [ih]

end SumSplit
-- ==== Proof.KernelValue.lean ====
/-
  The kernel's result at the ideal values: the mean loss of the two arguments.

  After point `n` the output's [1, 1] staging buffer holds, at its one index, the losses of blocks `0 … n` added one after
  the other onto zero (induction on the point: the first point starts from the zero word, a middle point adds its
  block's loss to what the point before left), and after the last point that sum over the word of 4194304. A block's
  loss is the sum over its 8192 rows of the row loss of `LossSpec`, and 512 blocks of 8192 rows are the 4194304 rows
  once each, so the last point leaves `LossSpec.meanLoss` of the arguments. The one write-back is at the last point and
  its block is the whole [1, 1] array; the host then reshapes that array to the scalar result.
-/
import proofs.«117349_j28381143892403_1_alg».proof.Proof.Gen.KernelIdeal.Frame
import proofs.«117349_j28381143892403_1_alg».proof.Proof.BodyPieces
import proofs.«117349_j28381143892403_1_alg».proof.Proof.BodyRows
import proofs.«117349_j28381143892403_1_alg».proof.Proof.BlockReads
import proofs.«117349_j28381143892403_1_alg».proof.Proof.LossSpec
import proofs.«117349_j28381143892403_1_alg».proof.Proof.LibSumSplit
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.LossValue

open Cert.KernelIdeal Cert.KernelIdeal.Gen Cert.LossSpec
open Cert.KernelIdeal.BodyRows Cert.KernelIdeal.BodyPieces Cert.KernelIdeal.BlockReads

variable (m : (ℓ : Loc nD τ sig) → Buf (Elt Ideal) ℓ) (ρ : Dev nD → PrngReg)

/-- The logits argument on core `c`, row by row. -/
def logits (c : Dev nD) (i : Fin 4194304) (k : Fin 9) : EReal := m ((c.tc : Thread nD τ).loc main_arg0) (ix2 i k)
/-- The targets argument on core `c`. -/
def targets (c : Dev nD) (i : Fin 4194304) : BitVec 32 := m ((c.tc : Thread nD τ).loc main_arg1) (ix1 i)

/-- The loss of block `n`: the sum of its rows' losses. -/
def blockLoss (c : Dev nD) (n : ℕ) : EReal :=
  ∑ r : Fin 8192, rowLoss (logits m c (rowOf n r.val)) (targets m c (rowOf n r.val))

/-- One accumulation step at point `t`: the running value plus the block's loss. -/
theorem block_step (c : Dev nD) (t : Fin cfg0.N) (acc : Vec Ideal S1x1 .f32) :
    k0_pay1 (F := Ideal) (k0_pay4 (iblk m c 1 t)) (k0_pay5 (iblk m c 0 t)) acc (ix2 0 0)
      = acc (ix2 0 0) + blockLoss m c t.val := by
  refine (accumulate_apply (k0_pay4 (iblk m c 1 t)) (k0_pay5 (iblk m c 0 t)) acc).trans ?_
  refine congrArg (acc (ix2 0 0) + ·) (Finset.sum_congr rfl fun r _ => ?_)
  rw [zeroWord, zero_sub']
  unfold rowLoss
  refine congrArg Neg.neg (Finset.sum_congr rfl fun k _ => ?_)
  refine congrArg₂ (· * ·) ((labels_apply (iblk m c 1 t) r k).trans ?_) ((logProbs_apply (iblk m c 0 t) r k).trans ?_)
  · exact congrArg (fun tg => label tg k) (targets_blk m c t r)
  · exact congrArg (fun x => logProb x k) (funext fun j => logits_blk m c t r j)

/-- Before the last point the buffer holds the blocks' losses so far, added one after the other onto zero. -/
theorem acc_eq (c : Dev nD) : ∀ (n : ℕ) (h : n < cfg0.N), n ≠ 511 →
    outsAt0 m c n h (ix2 0 0) = SumSplit.accUpTo (blockLoss m c) (n + 1)
  | 0, h, _ => by
    rw [outsAt0_A m c ⟨0, h⟩ rfl (by dsimp only; omega), out_first]
    refine (block_step m c ⟨0, h⟩ (k0_pay3 (F := Ideal))).trans ?_
    show Ideal.ofBits .f32 0x00000000#32 + blockLoss m c 0 = 0 + blockLoss m c 0
    rw [zeroWord]
  | n + 1, h, hne => by
    have hN : cfg0.N = 512 := N_0
    have h0 : ¬(⟨n + 1, h⟩ : Fin cfg0.N).val % 512 = 0 := by dsimp only; omega
    have h1 : ¬(⟨n + 1, h⟩ : Fin cfg0.N).val % 512 = 511 := by dsimp only; omega
    rw [outsAt0_B m c ⟨n + 1, h⟩ h0 h1, out_mid]
    refine (block_step m c ⟨n + 1, h⟩ _).trans ?_
    show outsAt0 m c n _ (ix2 0 0) + blockLoss m c (n + 1) = SumSplit.accUpTo (blockLoss m c) (n + 1) + blockLoss m c (n + 1)
    rw [acc_eq c n _ (by omega)]

/-- After the last point: all 512 losses, over the word of 4194304. -/
theorem last_eq (c : Dev nD) (h : 511 < cfg0.N) :
    outsAt0 m c 511 h (ix2 0 0) = Ideal.div (SumSplit.accUpTo (blockLoss m c) 512) (Ideal.ofBits .f32 0x4A800000#32) := by
  have h0 : ¬(⟨511, h⟩ : Fin cfg0.N).val % 512 = 0 := by dsimp only; omega
  have h1 : (⟨511, h⟩ : Fin cfg0.N).val % 512 = 511 := rfl
  rw [outsAt0_C m c ⟨511, h⟩ h0 h1, out_last]
  refine (mean_apply _ (ix2 0 0)).trans (congrArg (fun a => Ideal.div a (Ideal.ofBits .f32 0x4A800000#32)) ?_)
  refine (block_step m c ⟨511, h⟩ _).trans ?_
  show outsAt0 m c 510 _ (ix2 0 0) + blockLoss m c 511 = SumSplit.accUpTo (blockLoss m c) 511 + blockLoss m c 511
  rw [acc_eq m c 510 _ (by decide)]

/-- 512 blocks of 8192 rows are the 4194304 rows, once each. -/
theorem total_eq (c : Dev nD) :
    SumSplit.accUpTo (blockLoss m c) 512 = ∑ i : Fin 4194304, rowLoss (logits m c i) (targets m c i) := by
  rw [SumSplit.accUpTo_eq_sum]
  refine Eq.trans ?_ (SumSplit.sum_blocks 512 8192 (fun i : Fin 4194304 => rowLoss (logits m c i) (targets m c i))).symm
  refine Finset.sum_congr rfl fun kk _ => Finset.sum_congr rfl fun s _ => ?_
  have e : rowOf kk.val s.val = ⟨8192 * kk.val + s.val, SumSplit.blk_lt kk s⟩ :=
    Fin.ext (Nat.mod_eq_of_lt (SumSplit.blk_lt kk s))
  rw [e]

/-- The result array after the run: the mean loss, at its one index. -/
def result (c : Dev nD) : Buf (Elt Ideal) ((c.tc : Thread nD τ).loc main_v1) := fun _ => meanLoss (logits m c) (targets m c)

theorem final_point (c : Dev nD) (h : 511 < cfg0.N) (y : S1x1.Idx) : outsAt0 m c 511 h y = meanLoss (logits m c) (targets m c) := by
  rw [one_idx y, last_eq, total_eq]
  rfl

/-- The last point of the grid. -/
theorem lastPt_lt : 511 < cfg0.N := by rw [show cfg0.N = 512 from N_0]; decide
abbrev lastPt : Fin cfg0.N := ⟨511, lastPt_lt⟩

/-- The one write-back, at the last point, writes the result through the whole [1, 1] block. -/
theorem flushed_eq (c : Dev nD) (t : Fin cfg0.N) (hf : (cfg0.win 2).flush t = true) :
    (dats m 0 c).flushed 2 t = ((cfg0.win 2).blk t).view.read (Elt Ideal) (result m c) := by
  have hN : cfg0.N = 512 := N_0
  have h511 : t.val = 511 := by have := (flush0_2 t).mp hf; have := t.isLt; omega
  obtain rfl : t = lastPt := Fin.ext h511
  show (cfg0.win 2).cut (grid0.coords lastPt) ((dats m 0 c).after 2 lastPt) = _
  rw [after0_2]
  funext y
  rw [View.read_apply]
  show outsAt0 m c 511 lastPt_lt y = meanLoss (logits m c) (targets m c)
  exact final_point m c lastPt_lt y

/-- So the result array ends holding the mean loss. -/
theorem final (c : Dev nD) : (dats m 0 c).arrAt 2 cfg0.N = result m c :=
  (dats m 0 c).arrAt_eq_of_cover 2 (result m c) (flushed_eq m c) fun i =>
    ⟨lastPt, (flush0_2 lastPt).mpr rfl, by
      show i ∈ ((View.whole main_v1).slice (win0_2.rect lastPt)).set
      rw [View.set_slice_whole, Rect.mem_set_unit]
      intro a
      have h0 : (i 0 : Nat) < 1 := idx2_lt0 i
      have h1 : (i 1 : Nat) < 1 := idx2_lt1 i
      match a with
      | ⟨0, _⟩ =>
        show win0_2.index lastPt 0 * win0_2.size 0 ≤ (i 0 : Nat)
          ∧ (i 0 : Nat) < win0_2.index lastPt 0 * win0_2.size 0 + win0_2.xsize (grid0.coords lastPt) 0
        rw [(idx_facts lastPt).2.2.2.2.1, (idx_facts lastPt).2.2.2.2.2.2.1]; omega
      | ⟨1, _⟩ =>
        show win0_2.index lastPt 1 * win0_2.size 1 ≤ (i 1 : Nat)
          ∧ (i 1 : Nat) < win0_2.index lastPt 1 * win0_2.size 1 + win0_2.xsize (grid0.coords lastPt) 1
        rw [(idx_facts lastPt).2.2.2.2.2.1, (idx_facts lastPt).2.2.2.2.2.2.2]; omega⟩

/-- The host's reshape of the result array to a scalar. -/
theorem tail_eq (c : Dev nD) :
    Pipeline.afterTail₀ cfgs (dats m) 0 (V0 m) [hostOps1] c main_v2 = fun _ => meanLoss (logits m c) (targets m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = result m c := (Pipeline.withArrays_arr spec0 launch0.win.arr_inj c _ _ 2).trans (final m c)
  funext i
  show shapeCast S_ (Pipeline.withArrays (cfgs 0).spec c (V0 m c) (fun w => (dats m 0 c).arrAt w (cfgs 0).N) (Proc.devRef .tc main_v1))
    shapeCasts_S1x1_S_ i = _
  rw [hw]
  rfl

/-- The kernel's run, read: the scalar result at the mean loss of the arguments, the arguments unchanged. -/
theorem run : θ_run defs (onTc (τ := τ) (main (F := Ideal))) ⟨m, fun _ => 0, ρ⟩ fun r => ∀ c : Dev nD,
      r.2.mem ((c.tc : Thread nD τ).loc main_v2) = (fun _ => meanLoss (logits m c) (targets m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.LossValue

end
-- ==== Proof.LibCallBuffers.lean ====
/-
  Two small facts about a host program read as a list of operations (Lib/StableHlo/Run.lean), for any values:

  * `after_append`: the buffers' contents after a list of operations run in two parts — the second part starts from what
    the first part leaves. It lets a long program be read in pieces, each over the previous piece's results as atoms.
  * `ofBuf_toBuf`: a value stored into a called function's typed buffer and read back from it is the value (the two
    transports along the buffer's type equation cancel). A function that jax outlined (relu, log_softmax, where …)
    passes every intermediate value through such a pair; rewriting them away first leaves the operations' plain term.
-/
import Idealize.ShloMosaic.Lib.StableHlo.Run

namespace Idealize.ShloMosaic.StableHlo

variable {τ : Topo} {sig : RefSig} {Val : EltTy → Type}

/-- Running a list of operations in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Stored into a typed buffer and read back: the value. -/
theorem TRef.ofBuf_toBuf {T : BufTy} (x : TRef sig T) (v : T.Contents Val) : x.ofBuf (x.toBuf v) = v := by
  obtain ⟨r, h, _, _⟩ := x
  subst h
  rfl

end Idealize.ShloMosaic.StableHlo
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibLogSoftmaxRows.lean ====
/-
  A logarithmic softmax along the rows of a matrix, read AT AN INDEX at the ideal values, for kernels and references that
  spell it the numerically careful way: subtract the row's maximum, exponentiate, sum along the row, take the logarithm and
  subtract it, with both reductions kept as a column (`keepdims`) and broadcast back along the row, and the maximum joined
  once more with a lower bound before it is used (jax's guard against a row that is all minus infinity).

  * `rowMax lo init row`: `max lo` of the fold of `max` from `init` over the row;
  * `logSoftmaxAt lo init row j`: the value — `row j − M − log (∑ c, exp (row c − M))` with `M = rowMax lo init row`;
  * `logSoftmaxRows_apply`: a kernel's whole chain over the rows of a rank-2 vector (multi_reduction ⟨maximumf⟩, maximum
    with a splat scalar, cast to a column, broadcast, subtract, exponentiate, multi_reduction ⟨add⟩, cast, logarithm,
    broadcast, subtract) at (r, j) is `logSoftmaxAt` of row r;
  * `hostRowMax2_apply`: the host's one-operand reduce with a `maximum` body over the second axis of a matrix, at a row,
    is the fold of `max` from the initial value's element;
  * `hostRowSum2_apply`: the host's float sum over the second axis of a matrix, at a row, is the initial value's element
    plus the sum along the row;
  * `hostLogSoftmaxRows_apply`: the reference's chain over a matrix (reduce-maximum, maximum with a vector of lower
    bounds, the two keepdims broadcasts, subtract, exponentiate, reduce-add from a zero, broadcast, logarithm, broadcast,
    subtract) at (i, j) is `logSoftmaxAt` of row i.

  Nothing here needs the entries to be finite: two sides that both spell the logarithmic softmax this way are the same
  function on the extended reals.
-/
import Idealize.ShloMosaic.PureOps.Ideal.Laws
import Idealize.ShloMosaic.Lib.Pipeline.Value
import Idealize.ShloMosaic.Lib.ValueIdx
import proofs.«117349_j28381143892403_1_alg».proof.Proof.LibKeepdims
import proofs.«117349_j28381143892403_1_alg».proof.Proof.LibSoftmaxRows
import proofs.«117349_j28381143892403_1_alg».proof.Proof.LibHostReads

noncomputable section

open scoped BigOperators

namespace Idealize.ShloMosaic.LogSoftmaxRows

open Idealize.ShloMosaic Idealize.ShloMosaic.ValueIdx

/-- A row's maximum as a fold of `max` from `init`, joined with the lower bound `lo`. -/
def rowMax {n : Nat} (lo init : EReal) (row : Fin n → EReal) : EReal :=
  max lo ((Finset.univ : Finset (Fin n)).fold max init row)

/-- The logarithmic softmax of one row at position `j`, the row's maximum subtracted first. -/
def logSoftmaxAt {n : Nat} (lo init : EReal) (row : Fin n → EReal) (j : Fin n) : EReal :=
  (row j - rowMax lo init row) - Ideal.log (∑ c : Fin n, Ideal.exp (row c - rowMax lo init row))

/-- The keepdims logarithmic-softmax chain of a kernel over the rows of `s`, at (r, j). -/
theorem logSoftmaxRows_apply {n0 n1 : Nat} (s : FVec Ideal ⟨2, ![n0, n1]⟩ .f32) (lo : Ideal .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    subf (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb))
        (broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb) (ix2 r j)
      = logSoftmaxAt lo (Ideal.ofBits .f32 accM) (fun c => s (ix2 r c)) j := by
  have hmax : ∀ c : Fin n1, broadcastTo ⟨2, ![n0, n1]⟩ (shapeCast ⟨2, ![n0, 1]⟩ (maximumf (broadcast ⟨1, ![n0]⟩ lo) (multiReduction .maximumf [1] ⟨1, ![n0]⟩ s accM hr hφ hM)) hc) hb (ix2 r c)
      = rowMax lo (Ideal.ofBits .f32 accM) (fun c => s (ix2 r c)) := fun c =>
    (Keepdims.bcast_col_apply _ hb r c).trans ((Keepdims.cast_col_apply _ hc r 0).trans
      ((show maximumf (broadcast ⟨1, ![n0]⟩ lo) (multiReduction .maximumf [1] ⟨1, ![n0]⟩ s accM hr hφ hM) (ix1 r)
          = max lo (multiReduction .maximumf [1] ⟨1, ![n0]⟩ s accM hr hφ hM (ix1 r)) from rfl).trans
        (congrArg (max lo) (SoftmaxRows.rowMax2_apply s accM hr hφ hM r))))
  have hexp : ∀ c : Fin n1, exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)) (ix2 r c)
      = Ideal.exp (s (ix2 r c) - rowMax lo (Ideal.ofBits .f32 accM) (fun c => s (ix2 r c))) := fun c =>
    congrArg (fun m => Ideal.exp (s (ix2 r c) - m)) (hmax c)
  have hlog : broadcastTo ⟨2, ![n0, n1]⟩ (log (shapeCast ⟨2, ![n0, 1]⟩ (multiReduction .add [1] ⟨1, ![n0]⟩
          (exp (subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb)))
          accS hr hφ hS) hc)) hb (ix2 r j)
      = Ideal.log (∑ c : Fin n1, Ideal.exp (s (ix2 r c) - rowMax lo (Ideal.ofBits .f32 accM) (fun c => s (ix2 r c)))) :=
    (Keepdims.bcast_col_apply _ hb r j).trans (congrArg Ideal.log ((Keepdims.cast_col_apply _ hc r 0).trans
      ((Keepdims.rowSum2_apply _ accS hr hφ hS r).trans (Finset.sum_congr rfl fun c _ => hexp c))))
  have hsub : subf s (broadcastTo ⟨2, ![n0, n1]⟩ (shapeCast ⟨2, ![n0, 1]⟩ (maximumf (broadcast ⟨1, ![n0]⟩ lo) (multiReduction .maximumf [1] ⟨1, ![n0]⟩ s accM hr hφ hM)) hc) hb) (ix2 r j)
      = s (ix2 r j) - rowMax lo (Ideal.ofBits .f32 accM) (fun c => s (ix2 r c)) :=
    congrArg (fun m => s (ix2 r j) - m) (hmax j)
  unfold logSoftmaxAt
  exact congrArg₂ (fun a b : EReal => a - b) hsub hlog

/-- The host's reduce with a `maximum` body over the second axis of a matrix, at row i: the fold of `max` from the
    initial value's element over the column coordinate. -/
theorem hostRowMax2_apply {a b : Nat} {φ : FTy} {u : Shape} (x : (⟨2, ![a, b]⟩ : Shape).Idx → Ideal φ)
    (init : u.Idx → Ideal φ) (h' : (⟨2, ![a, b]⟩ : Shape).ReducesTo [1] ⟨1, ![a]⟩)
    (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun c => x (ix2 i c)) :=
  (Host.reduce_eq_fold_single (FloatOps.maximumf (F := Ideal) (φ := φ)) x init h' h hu (ix1 i)).trans
    (Finset.fold_congr fun c _ => congrArg x (funext fun d => Fin.ext (by
      match d with | ⟨0, _⟩ => rfl | ⟨1, _⟩ => rfl)))

/-- The host's float sum over the second axis of a matrix, at row i: the initial value's element plus the sum along the row. -/
theorem hostRowSum2_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x init h' hu (ix1 i) = init (Shape.Idx.first hu) + ∑ c : Fin b, x (ix2 i c) :=
  HostReads.hostSum2_apply h' h x (init (Shape.Idx.first hu)) i

/-- The reference's logarithmic-softmax chain over the rows of the matrix `x`, at (i, j). -/
theorem hostLogSoftmaxRows_apply {a b : Nat} {u : Shape} (x : FVec Ideal ⟨2, ![a, b]⟩ .f32) (lo : FVec Ideal ⟨1, ![a]⟩ .f32)
    (initM initS : u.Idx → Ideal .f32)
    (h' : (⟨2, ![a, b]⟩ : Shape).ReducesTo [1] ⟨1, ![a]⟩) (h : (⟨2, ![a, b]⟩ : Shape).Reduces [1] ⟨1, ![a]⟩) (hu : 0 < u.numel)
    (hc : (⟨1, ![a]⟩ : Shape).BroadcastsInDim ⟨2, ![a, 1]⟩ ![0]) (hb : (⟨2, ![a, 1]⟩ : Shape).BroadcastsInDim ⟨2, ![a, b]⟩ ![0, 1])
    (hz : initS (Shape.Idx.first hu) = 0) (i : Fin a) (j : Fin b) :
    subf (subf x (broadcastInDim ⟨2, ![a, b]⟩ ![0, 1] hb (broadcastInDim ⟨2, ![a, 1]⟩ ![0] hc (maximumf lo (Host.reduce (FloatOps.maximumf (F := Ideal) (φ := .f32)) x initM h' hu)))))
        (broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu)))) (ix2 i j)
      = logSoftmaxAt (lo (ix1 i)) (initM (Shape.Idx.first hu)) (fun c => x (ix2 i c)) j := by
  have hmax : ∀ c : Fin b, broadcastInDim ⟨2, ![a, b]⟩ ![0, 1] hb (broadcastInDim ⟨2, ![a, 1]⟩ ![0] hc (maximumf lo (Host.reduce (FloatOps.maximumf (F := Ideal) (φ := .f32)) x initM h' hu))) (ix2 i c)
      = rowMax (lo (ix1 i)) (initM (Shape.Idx.first hu)) (fun c => x (ix2 i c)) := fun c =>
    (HostReads.bcast_col_apply hb _ i c).trans ((HostReads.bcast_toCol_apply hc _ i 0).trans
      ((show maximumf lo (Host.reduce (FloatOps.maximumf (F := Ideal) (φ := .f32)) x initM h' hu) (ix1 i)
          = max (lo (ix1 i)) (Host.reduce (FloatOps.maximumf (F := Ideal) (φ := .f32)) x initM h' hu (ix1 i)) from rfl).trans
        (congrArg (max (lo (ix1 i))) (hostRowMax2_apply x initM h' h hu i))))
  have hexp : ∀ c : Fin b, Host.exp (subf x (broadcastInDim ⟨2, ![a, b]⟩ ![0, 1] hb (broadcastInDim ⟨2, ![a, 1]⟩ ![0] hc (maximumf lo (Host.reduce (FloatOps.maximumf (F := Ideal) (φ := .f32)) x initM h' hu))))) (ix2 i c)
      = Ideal.exp (x (ix2 i c) - rowMax (lo (ix1 i)) (initM (Shape.Idx.first hu)) (fun c => x (ix2 i c))) := fun c =>
    congrArg (fun m => Ideal.exp (x (ix2 i c) - m)) (hmax c)
  have hlog : broadcastInDim ⟨2, ![a, b]⟩ ![0, 1] hb (Host.log (broadcastInDim ⟨2, ![a, 1]⟩ ![0] hc (Host.reduceAdd
          (Host.exp (subf x (broadcastInDim ⟨2, ![a, b]⟩ ![0, 1] hb (broadcastInDim ⟨2, ![a, 1]⟩ ![0] hc (maximumf lo (Host.reduce (FloatOps.maximumf (F := Ideal) (φ := .f32)) x initM h' hu))))))
          initS h' hu))) (ix2 i j)
      = Ideal.log (∑ c : Fin b, Ideal.exp (x (ix2 i c) - rowMax (lo (ix1 i)) (initM (Shape.Idx.first hu)) (fun c => x (ix2 i c)))) :=
    (HostReads.bcast_col_apply hb _ i j).trans (congrArg Ideal.log ((HostReads.bcast_toCol_apply hc _ i 0).trans
      ((hostRowSum2_apply _ initS h' h hu i).trans
        ((congrArg (· + _) hz).trans ((zero_add _).trans (Finset.sum_congr rfl fun c _ => hexp c))))))
  have hsub : subf x (broadcastInDim ⟨2, ![a, b]⟩ ![0, 1] hb (broadcastInDim ⟨2, ![a, 1]⟩ ![0] hc (maximumf lo (Host.reduce (FloatOps.maximumf (F := Ideal) (φ := .f32)) x initM h' hu)))) (ix2 i j)
      = x (ix2 i j) - rowMax (lo (ix1 i)) (initM (Shape.Idx.first hu)) (fun c => x (ix2 i c)) :=
    congrArg (fun m => x (ix2 i j) - m) (hmax j)
  unfold logSoftmaxAt
  exact congrArg₂ (fun p q : EReal => p - q) hsub hlog

end Idealize.ShloMosaic.LogSoftmaxRows

end
-- ==== Proof.RefRows.lean ====
/-
  The reference's result is the specification.

  Stage by stage the reference computes, for every row `i` of the 4194304 and class `c` of the nine: the class distance
  (an iota along the classes minus the row's target, both broadcast to the full array), the label masses (two selects over
  the distance), their row sums and the quotient; the logarithmic softmax of the logits along the rows (the row maximum
  joined once more with `−∞`, which changes nothing: the fold of `max` already starts there); the row's sum of the
  products, negated; the sum over all rows from the zero word; the quotient by the word of 4194304. Read at an index each
  stage is the corresponding function of `LossSpec`; the zero words the sums start from denote zero.
-/
import proofs.«117349_j28381143892403_1_alg».proof.Proof.RefReadPatched
import proofs.«117349_j28381143892403_1_alg».proof.Proof.LossSpec
import proofs.«117349_j28381143892403_1_alg».proof.Proof.LibLogSoftmaxRows
import Idealize.ShloMosaic.Lib.ValueIdx
import Idealize.ShloMosaic.PureOps.Ideal.Laws

noncomputable section

open scoped BigOperators

namespace Cert.ReferenceIdeal.RefRows

open Idealize.ShloMosaic Idealize.ShloMosaic.ValueIdx Cert.ReferenceIdeal Cert.ReferenceIdeal.Gen Cert.ReferenceIdeal.ReadP
open Cert.LossSpec

variable (x0 : (⟨S4194304x9, .f32⟩ : BufTy).Contents (Elt Ideal)) (x1 : (⟨S4194304, .i32⟩ : BufTy).Contents (Elt Ideal))

/-- The class distance at row `i`, class `k`. -/
theorem gap_apply (i : Fin 4194304) (k : Fin 9) : val_main_v5 (F := Ideal) x1 (ix2 i k) = gap (x1 (ix1 i)) k := by
  rw [val_main_v5_apply, val_main_v3_apply, val_main_v1_apply, val_main_v0_apply, val_main_v4_apply, val_main_v2_apply]
  have e : idx_main_v2 (idx_main_v4 (ix2 i k)) = ix1 i := funext fun a => match a with | ⟨0, _⟩ => rfl
  rw [e]
  rfl

/-- The label mass at row `i`, class `k`. -/
theorem mass_apply (i : Fin 4194304) (k : Fin 9) : val_main_v20 (F := Ideal) x1 (ix2 i k) = weight (x1 (ix1 i)) k := by
  rw [val_main_v20_apply, val_main_v17_apply, val_main_v16_apply, val_main_c_2_apply, val_main_call1_v0_apply,
    val_main_cst_4_apply, val_main_v19_apply, val_main_v18_apply, val_main_cst_3_apply, val_main_v15_apply,
    val_main_v7_apply, val_main_v6_apply, val_main_c_apply, val_main_v14_apply, val_main_v13_apply, val_main_cst_0_apply,
    val_main_v12_apply, val_main_v11_apply, val_main_v10_apply, val_main_cst_apply, val_main_v9_apply, val_main_v8_apply,
    val_main_call0_v0_apply, val_main_cst_1_apply, gap_apply]
  rfl

/-- The label at row `i`, class `c`. -/
theorem label_apply (i : Fin 4194304) (c : Fin 9) : val_main_v24 (F := Ideal) x1 (ix2 i c) = label (x1 (ix1 i)) c := by
  rw [val_main_v24_apply, val_main_v23_apply, val_main_v22_apply, val_main_v21_apply, val_main_cst_5_apply, mass_apply]
  have e : ∀ k : Fin 9, idx_main_v21 (idx_main_v22 (idx_main_v23 (ix2 i c))) k = ix2 i k := fun k =>
    funext fun a => match a with | ⟨0, _⟩ => rfl | ⟨1, _⟩ => rfl
  simp only [e, mass_apply]
  show Ideal.div _ (Ideal.ofBits .f32 0x00000000#32 + _) = _
  rw [zeroWord, zero_add]
  rfl

/-- The row maximum the logarithmic softmax subtracts, at row `i`: the fold of `max` from `−∞` (joined once more with `−∞`). -/
theorem rowMax_apply (i : Fin 4194304) : val_main_call2_v2 (F := Ideal) x0 (ix1 i) = rowMax (fun j => x0 (ix2 i j)) := by
  have h : val_main_call2_v0 (F := Ideal) x0 (ix1 i) = rowMax (fun j => x0 (ix2 i j)) :=
    LogSoftmaxRows.hostRowMax2_apply x0 (val_main_call2_cst (F := Ideal)) reducesTo_S4194304x9_S4194304_d1 (by decide) h_S_ i
  rw [val_main_call2_v2_apply, val_main_call2_v1_apply, val_main_call2_cst_0_apply, h]
  exact SoftmaxRows.max_fold_max_self _ _ _

/-- The shifted logits at row `i`, class `k`. -/
theorem shifted_apply (i : Fin 4194304) (k : Fin 9) :
    val_main_call2_v5 (F := Ideal) x0 (ix2 i k) = x0 (ix2 i k) - rowMax (fun j => x0 (ix2 i j)) := by
  have e : idx_main_call2_v3 (idx_main_call2_v4 (ix2 i k)) = ix1 i := funext fun a => match a with | ⟨0, _⟩ => rfl
  rw [val_main_call2_v5_apply, val_main_call2_v4_apply, val_main_call2_v3_apply, e, rowMax_apply]
  rfl

/-- The row's sum of exponentials at row `i`. -/
theorem sumExp_apply (i : Fin 4194304) :
    val_main_call2_v7 (F := Ideal) x0 (ix1 i) = ∑ k : Fin 9, Ideal.exp (x0 (ix2 i k) - rowMax (fun j => x0 (ix2 i j))) := by
  have e : ∀ k : Fin 9, idx_main_call2_v7 (ix1 i) k = ix2 i k := fun k =>
    funext fun a => match a with | ⟨0, _⟩ => rfl | ⟨1, _⟩ => rfl
  rw [val_main_call2_v7_apply, val_main_call2_cst_1_apply]
  simp only [e, val_main_call2_v6_apply, shifted_apply]
  show Ideal.ofBits .f32 0x00000000#32 + _ = _
  rw [zeroWord, zero_add]
  rfl

/-- The log-probability at row `i`, class `c`. -/
theorem logProb_apply (i : Fin 4194304) (c : Fin 9) :
    val_main_v25 (F := Ideal) x0 (ix2 i c) = logProb (fun j => x0 (ix2 i j)) c := by
  have e : idx_main_call2_v8 (idx_main_call2_v10 (ix2 i c)) = ix1 i := funext fun a => match a with | ⟨0, _⟩ => rfl
  rw [val_main_v25_apply, shifted_apply, val_main_call2_v10_apply, val_main_call2_v9_apply, val_main_call2_v8_apply, e, sumExp_apply]
  rfl

/-- The row loss at row `i`. -/
theorem rowLoss_apply (i : Fin 4194304) :
    val_main_v28 (F := Ideal) x0 x1 (ix1 i) = rowLoss (fun j => x0 (ix2 i j)) (x1 (ix1 i)) := by
  have e : ∀ k : Fin 9, idx_main_v27 (ix1 i) k = ix2 i k := fun k =>
    funext fun a => match a with | ⟨0, _⟩ => rfl | ⟨1, _⟩ => rfl
  have hprod : ∀ k : Fin 9, val_main_v26 (F := Ideal) x0 x1 (idx_main_v27 (ix1 i) k)
      = label (x1 (ix1 i)) k * logProb (fun j => x0 (ix2 i j)) k := fun k => by
    rw [e k, val_main_v26_apply, label_apply, logProb_apply]
    rfl
  have hsum : val_main_v27 (F := Ideal) x0 x1 (ix1 i) = ∑ k : Fin 9, label (x1 (ix1 i)) k * logProb (fun j => x0 (ix2 i j)) k := by
    rw [val_main_v27_apply, val_main_cst_6_apply]
    exact (congrArg₂ (fun a b : EReal => a + b) zeroWord (Finset.sum_congr rfl fun k _ => hprod k)).trans (zero_add _)
  rw [val_main_v28_apply, hsum]
  rfl

/-- A sum over the indices of a vector of 4194304 entries is the sum over its coordinate. -/
theorem sum_rows (f : S4194304.Idx → EReal) : ∑ j : S4194304.Idx, f j = ∑ i : Fin 4194304, f (ix1 i) :=
  Fintype.sum_equiv ⟨fun j => j 0, fun i => ix1 i, fun j => (eq_ix1 j).symm, fun _ => rfl⟩ _ _
    (fun j => congrArg f (eq_ix1 j))

/-- The reference's result, at its one index, is the mean loss of the two arguments. -/
theorem result_eq : val_main_v30 (F := Ideal) x0 x1 = fun _ => meanLoss (fun i c => x0 (ix2 i c)) (fun i => x1 (ix1 i)) := by
  funext j
  rw [val_main_v30_apply, val_main_v29_apply, val_main_cst_7_apply, val_main_cst_8_apply, sum_rows]
  simp only [rowLoss_apply]
  show Ideal.div (Ideal.ofBits .f32 0x00000000#32 + _) _ = _
  rw [zeroWord, zero_add]
  rfl

end Cert.ReferenceIdeal.RefRows

end
-- ==== Proof.lean ====
/-
  A label-smoothed cross-entropy with an upward bias over 4194304 rows of nine logits, computed by a kernel that walks the
  rows in 512 blocks of 8192 and keeps one running scalar, against the same loss written over the whole arrays.

  Both programs give class `c` of a row with target `tg` the mass `0.8` at the target and elsewhere `1/90` plus, above the
  target, `0.1 · exp (ln2 · (tg − c))` (the reference's `exp2` is lowered to the same exponential of a product with the same
  single-precision `ln2`), normalise the masses along the row, take the logarithmic softmax of the logits with the row maximum
  subtracted first, and average minus the sum over the classes of label times log-probability over all rows. On the extended
  reals the two differ only in spelling — `0 − x` for `−x`, the order of one product, one more `max` with `−∞`, zero words
  added at the start of sums — and in the order of the sum over the rows: the kernel adds block sums one after the other onto
  zero, the reference sums all rows at once, and addition of extended reals is commutative and associative, so no entry needs
  to be finite (`LossSpec`: the common function; `KernelValue`: the kernel ends at it; `RefRows`: the reference does).

  The three frames: the two kernels' are the generated frame certificates; the reference's is its run with the result dropped.
  The idealization rewrote nothing, so `preserves` is `True`.
-/
import proofs.«117349_j28381143892403_1_alg».proof.Defs
import proofs.«117349_j28381143892403_1_alg».proof.Proof.Gen.Kernel
import proofs.«117349_j28381143892403_1_alg».proof.Proof.Gen.Kernel.Skeleton
import proofs.«117349_j28381143892403_1_alg».proof.Proof.Gen.Kernel.Launch
import proofs.«117349_j28381143892403_1_alg».proof.Proof.Gen.Kernel.Points
import proofs.«117349_j28381143892403_1_alg».proof.Proof.Gen.Kernel.Frame
import proofs.«117349_j28381143892403_1_alg».proof.Proof.Gen.KernelIdeal
import proofs.«117349_j28381143892403_1_alg».proof.Proof.Gen.KernelIdeal.Skeleton
import proofs.«117349_j28381143892403_1_alg».proof.Proof.Gen.KernelIdeal.Launch
import proofs.«117349_j28381143892403_1_alg».proof.Proof.Gen.KernelIdeal.Points
import proofs.«117349_j28381143892403_1_alg».proof.Proof.Gen.KernelIdeal.Frame
import proofs.«117349_j28381143892403_1_alg».proof.Proof.Gen.ReferenceIdeal
import proofs.«117349_j28381143892403_1_alg».proof.Proof.Gen.Pre_finite_inputs
import proofs.«117349_j28381143892403_1_alg».proof.Proof.KernelValue
import proofs.«117349_j28381143892403_1_alg».proof.Proof.RefRows
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal values the kernel's scalar ends at the mean loss of its arguments, and the reference's at the mean loss of
    arguments that agree with them: one number. -/
theorem algebraic : Cert.algebraic_KernelIdeal_ReferenceIdeal := by
  intro m ρ m' ρ' _ hagree
  refine ⟨fun c => fun _ => Cert.LossSpec.meanLoss (Cert.KernelIdeal.LossValue.logits m c) (Cert.KernelIdeal.LossValue.targets m c),
    Cert.KernelIdeal.LossValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v30_eq, Cert.ReferenceIdeal.RefRows.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
